-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S4096x256 : Shape := ⟨2, ![4096, 256]⟩
abbrev S1x4096 : Shape := ⟨2, ![1, 4096]⟩
abbrev S1 : Shape := ⟨1, ![1]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S1x4096 : S_.BroadcastsInDim S1x4096 (![] : Fin 0 → Fin S1x4096.rank)
  reducesTo_S1x4096_S_d0_1 : S1x4096.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S16384x256 .f32) (main_arg1 : FVec F S4096x256 .f32) (main_arg2 : FVec F S1x4096 .f32) (main_arg3 : FVec F S1 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S16384x256 : Shape := ⟨2, ![16384, 256]⟩
abbrev S4096x256 : Shape := ⟨2, ![4096, 256]⟩
abbrev S1x4096 : Shape := ⟨2, ![1, 4096]⟩
abbrev S1 : Shape := ⟨1, ![1]⟩
abbrev S16384x1 : Shape := ⟨2, ![16384, 1]⟩
abbrev S2048x256 : Shape := ⟨2, ![2048, 256]⟩
abbrev S512x256 : Shape := ⟨2, ![512, 256]⟩
abbrev S1x512 : Shape := ⟨2, ![1, 512]⟩
abbrev S2048x1 : Shape := ⟨2, ![2048, 1]⟩
abbrev S2048 : Shape := ⟨1, ![2048]⟩
abbrev S512 : Shape := ⟨1, ![512]⟩
abbrev S512x1 : Shape := ⟨2, ![512, 1]⟩
abbrev S256x512 : Shape := ⟨2, ![256, 512]⟩
abbrev S2048x512 : Shape := ⟨2, ![2048, 512]⟩

abbrev nBuf : Space → Nat
  | .hbm => 5
  | .vmem => 10
  | .smem => 0
  | _ => 0

abbrev bufTy : (tb : Table) → Fin (tcTables nBuf tb) → BufTy
  | .hbm, ⟨0, _⟩ => ⟨S16384x256, .f32⟩
  | .hbm, ⟨1, _⟩ => ⟨S4096x256, .f32⟩
  | .hbm, ⟨2, _⟩ => ⟨S1x4096, .f32⟩
  | .hbm, ⟨3, _⟩ => ⟨S1, .f32⟩
  | .hbm, ⟨4, _⟩ => ⟨S16384x1, .f32⟩
  | .local _ .vmem, ⟨0, _⟩ => ⟨S2048x256, .f32⟩
  | .local _ .vmem, ⟨1, _⟩ => ⟨S2048x256, .f32⟩
  | .local _ .vmem, ⟨2, _⟩ => ⟨S512x256, .f32⟩
  | .local _ .vmem, ⟨3, _⟩ => ⟨S512x256, .f32⟩
  | .local _ .vmem, ⟨4, _⟩ => ⟨S1x512, .f32⟩
  | .local _ .vmem, ⟨5, _⟩ => ⟨S1x512, .f32⟩
  | .local _ .vmem, ⟨6, _⟩ => ⟨S1, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_15 : BitVec 32 := 0#32
  let v37 : BitVec 1 := Scalar.cmpi .ne v36 c0_i32_15
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  inb_S512x256_S512x256_0_0 : ∀ a, (![0, 0] : Fin 2 → Nat) a + S512x256.size a ≤ S512x256.size a
  h_S512x256 : 0 < S512x256.numel
  reduces_S2048x256_S2048 : S2048x256.Reduces [1] S2048
  shapeCasts_S2048_S2048x1 : S2048.ShapeCasts S2048x1
  reduces_S512x256_S512 : S512x256.Reduces [1] S512
  shapeCasts_S512_S512x1 : S512.ShapeCasts S512x1
  transposes_S512x1_p1_0_S1x512 : S512x1.Transposes [1, 0] S1x512
  bitsLt_bf16_f32 : FTy.bits .bf16 < FTy.bits .f32
  transposes_S512x256_p1_0_S256x512 : S512x256.Transposes [1, 0] S256x512
  broadcasts_S2048x1_S2048x512 : S2048x1.Broadcasts S2048x512
  broadcasts_S1x512_S2048x512 : S1x512.Broadcasts S2048x512
  inb_S1x512_S1x512_0_0 : ∀ a, (![0, 0] : Fin 2 → Nat) a + S1x512.size a ≤ S1x512.size a
  h_S1x512 : 0 < S1x512.numel
  transposes_S1x512_p1_0_S512x1 : S1x512.Transposes [1, 0] S512x1
  inb_S1_S1_0 : ∀ a, (![0] : Fin 1 → Nat) a + S1.size a ≤ S1.size a
  h_S1 : 0 < S1.numel
  inpos_S1_p0 : ∀ a, (![0] : Fin 1 → Nat) a < S1.size a
  dot_S2048x256_S256x512_S2048x512_1_0_0_1_n_n_wf : DotDims.WF S2048x256 S256x512 S2048x512 [1] [0] [0] [1] [] []
  dot_S2048x512_S512x1_S2048x1_1_0_0_1_n_n_wf : DotDims.WF S2048x512 S512x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .f32 = 32 ∨ (Rect.block (s := S4096x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S16384x1.size a
  hwx0_4 : ∀ i : grid0.Coords, EltTy.bits .f32 = 32 ∨ (Rect.block (s := S16384x1) S2048x1.size (cc0_transform_4 i) (hinb0_4 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x1_S2048x1_1_0_0_1_n_n : DotDims S2048x512 S512x1 S2048x1 where
  lhsContracting := [1]
  rhsContracting := [0]
  lhsNonContracting := [0]
  rhsNonContracting := [1]
  lhsBatch := []
  rhsBatch := []
  wf := dot_S2048x512_S512x1_S2048x1_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x256 : Shape := ⟨2, ![16384, 256]⟩
abbrev S4096x256 : Shape := ⟨2, ![4096, 256]⟩
abbrev S1x4096 : Shape := ⟨2, ![1, 4096]⟩
abbrev S1 : Shape := ⟨1, ![1]⟩
abbrev S_ : Shape := ⟨0, ![]⟩
abbrev S16384 : Shape := ⟨1, ![16384]⟩
abbrev S16384x1 : Shape := ⟨2, ![16384, 1]⟩
abbrev S4096 : Shape := ⟨1, ![4096]⟩
abbrev S16384x4096 : Shape := ⟨2, ![16384, 4096]⟩
abbrev S4096x1 : Shape := ⟨2, ![4096, 1]⟩
abbrev S1x1 : Shape := ⟨2, ![1, 1]⟩

abbrev nBuf : Space → Nat
  | .hbm => 38
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S4096x256, .f32⟩
  | .hbm, ⟨2, _⟩ => ⟨S1x4096, .f32⟩
  | .hbm, ⟨3, _⟩ => ⟨S1, .f32⟩
  | .hbm, ⟨4, _⟩ => ⟨S16384x256, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S4096x256, .f32⟩
  | .hbm, ⟨9, _⟩ => ⟨S_, .f32⟩
  | .hbm, ⟨10, _⟩ => ⟨S4096, .f32⟩
  | .hbm, ⟨11, _⟩ => ⟨S16384x4096, .f32⟩
  | .hbm, ⟨12, _⟩ => ⟨S1x4096, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S_, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S4096x1, .f32⟩
  | .hbm, ⟨26, _⟩ => ⟨S16384x1, .f32⟩
  | .hbm, ⟨27, _⟩ => ⟨S1x1, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  reducesTo_S4096x256_S4096_d1 : S4096x256.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  transposes_S1x4096_S4096x1_1_0 : S1x4096.Transposes [1, 0] S4096x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  dot_S16384x256_S4096x256_S16384x4096_1_1_0_0_n_n_wf : DotDims.WF S16384x256 S4096x256 S16384x4096 [1] [1] [0] [0] [] []
  dot_S16384x4096_S4096x1_S16384x1_1_0_0_1_n_n_wf : DotDims.WF S16384x4096 S4096x1 S16384x1 [1] [0] [0] [1] [] []

variable [Facts₀]

def dot_S16384x256_S4096x256_S16384x4096_1_1_0_0_n_n : DotDims S16384x256 S4096x256 S16384x4096 where
  lhsContracting := [1]
  rhsContracting := [1]
  lhsNonContracting := [0]
  rhsNonContracting := [0]
  lhsBatch := []
  rhsBatch := []
  wf := dot_S16384x256_S4096x256_S16384x4096_1_1_0_0_n_n_wf
def dot_S16384x4096_S4096x1_S16384x1_1_0_0_1_n_n : DotDims S16384x4096 S4096x1 S16384x1 where
  lhsContracting := [1]
  rhsContracting := [0]
  lhsNonContracting := [0]
  rhsNonContracting := [1]
  lhsBatch := []
  rhsBatch := []
  wf := dot_S16384x4096_S4096x1_S16384x1_1_0_0_1_n_n_wf

class Facts : Prop extends Facts₀ where

variable [Facts]
-- ==== Proof.Pieces.lean ====
/-
  What one grid point leaves behind, as values.

  The body keeps a running column `acc` (one entry per row of the current batch tile) in a scratch buffer that
  survives from one grid point to the next. At a point it reads the batch tile `x0`, the centre tile `x1`, the
  weight tile `x2`, and
    * at the first centre tile stores the zero column and then `0 + partial(x0, x1, x2)`,
    * at every other centre tile stores `acc + partial(x0, x1, x2)`,
    * at the last centre tile additionally stores `logistic (acc' + bias)` to the output block, `acc'` being the
      column it has just stored.
  Each statement below reads the stores of one of these cases back as the corresponding term of the body's
  arithmetic (`k0_pay1`, `k0_pay2`, `k0_pay3`), for any float instance.
-/
import proofs.«133548_j17892833755792_1_alg».proof.Proof.Gen.KernelIdeal.Frame
import Idealize.ShloMosaic.Lib.Pipeline.Value
import Idealize.ShloMosaic.Lib.Tactic

set_option maxRecDepth 16384

noncomputable section

namespace Cert.KernelIdeal.RbfPieces

open Cert.KernelIdeal Cert.KernelIdeal.Gen
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- A middle centre tile: the scratch ends at `acc + partial`. -/
theorem scratch_B (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x256 .f32) (x1 : Vec F S512x256 .f32) (x2 : Vec F S1x512 .f32) (x3 : Vec F S1 .f32) (acc : Vec F S2048x1 .f32) :
    sout0_B_0 c i arg2 harg2 arg3 harg3 arg4 harg4 arg5 harg5 arg6 harg6 arg7 harg7 hc0 hc1 x0 x1 x2 x3 acc = k0_pay3 x0 x1 x2 acc := by
  unfold sout0_B_0
  rw [View.read_writes_eq_canon _ _ _ (scover0_B_0 c i arg2 harg2 arg3 harg3 arg4 harg4 arg5 harg5 arg6 harg6 arg7 harg7 hc0 hc1 x0 x1 x2 x3 acc)]
  unfold kernelRun0_B
  dsimp only
  rw [View.canon_unit_zero hz2]
  simp only [View.readAt_eq_ld, harg2.read_unread, harg3.read_unread, harg4.read_unread, harg5.read_unread, harg7.read_unread, View.ld_unit_zero (S := S2048x256) hz2, View.ld_unit_zero (S := S512x256) hz2, View.ld_unit_zero (S := S1x512) hz2, View.ld_unit_zero (S := S2048x1) hz2, View.ld_unit_zero (S := S1) hz1]

/-- The last centre tile: the scratch again ends at `acc + partial`. -/
theorem scratch_C (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x256 .f32) (x1 : Vec F S512x256 .f32) (x2 : Vec F S1x512 .f32) (x3 : Vec F S1 .f32) (acc : Vec F S2048x1 .f32) :
    sout0_C_0 c i arg2 harg2 arg3 harg3 arg4 harg4 arg5 harg5 arg6 harg6 arg7 harg7 hc0 hc1 x0 x1 x2 x3 acc = k0_pay3 x0 x1 x2 acc := by
  unfold sout0_C_0
  rw [View.read_writes_eq_canon _ _ _ (scover0_C_0 c i arg2 harg2 arg3 harg3 arg4 harg4 arg5 harg5 arg6 harg6 arg7 harg7 hc0 hc1 x0 x1 x2 x3 acc)]
  unfold kernelRun0_C
  dsimp only
  sl_unfold_words
  rw [View.canon_unit_zero hz2]
  simp only [View.readAt_eq_ld, harg2.read_unread, harg3.read_unread, harg4.read_unread, harg5.read_unread, harg7.read_unread, View.ld_unit_zero (S := S2048x256) hz2, View.ld_unit_zero (S := S512x256) hz2, View.ld_unit_zero (S := S1x512) hz2, View.ld_unit_zero (S := S2048x1) hz2, View.ld_unit_zero (S := S1) hz1]

/-- The last centre tile: the output block is the logistic of the column just stored (read back from the scratch)
    plus the bias. -/
theorem out_C (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x256 .f32) (x1 : Vec F S512x256 .f32) (x2 : Vec F S1x512 .f32) (x3 : Vec F S1 .f32) (acc : Vec F S2048x1 .f32) :
    out0_C_4 c i arg2 harg2 arg3 harg3 arg4 harg4 arg5 harg5 arg6 harg6 arg7 harg7 hc0 hc1 x0 x1 x2 x3 acc = k0_pay1 x3 (k0_pay3 x0 x1 x2 acc) := by
  unfold out0_C_4
  rw [View.read_writes_eq_canon _ _ _ (cover0_C_4 c i arg2 harg2 arg3 harg3 arg4 harg4 arg5 harg5 arg6 harg6 arg7 harg7 hc0 hc1 x0 x1 x2 x3 acc)]
  unfold kernelRun0_C
  dsimp only
  sl_unfold_words
  rw [View.canon_unit_zero hz2, View.readCov_unit_zero (S := S2048x1) _ hz2]
  simp only [View.readAt_eq_ld, harg2.read_unread, harg3.read_unread, harg4.read_unread, harg5.read_unread, harg7.read_unread, View.ld_unit_zero (S := S2048x256) hz2, View.ld_unit_zero (S := S512x256) hz2, View.ld_unit_zero (S := S1x512) hz2, View.ld_unit_zero (S := S2048x1) hz2, View.ld_unit_zero (S := S1) hz1]

/-- The first centre tile: the scratch is reset to the zero column and read back, so it ends at `0 + partial`,
    whatever it held before. -/
theorem scratch_A (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x256 .f32) (x1 : Vec F S512x256 .f32) (x2 : Vec F S1x512 .f32) (x3 : Vec F S1 .f32) :
    sout0_A_0 c i arg2 harg2 arg3 harg3 arg4 harg4 arg5 harg5 arg6 harg6 arg7 harg7 hc0 hc1 x0 x1 x2 x3 = k0_pay3 x0 x1 x2 (k0_pay2 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S2048x1) hz2, View.readCov_unit_zero (S := S2048x1) _ hz2]
  simp only [View.readAt_eq_ld, harg2.read_unread, harg3.read_unread, harg4.read_unread, harg5.read_unread, harg7.read_unread, View.ld_unit_zero (S := S2048x256) hz2, View.ld_unit_zero (S := S512x256) hz2, View.ld_unit_zero (S := S1x512) hz2, View.ld_unit_zero (S := S2048x1) hz2, View.ld_unit_zero (S := S1) hz1]

end Cert.KernelIdeal.RbfPieces

end
-- ==== Proof.Spec.lean ====
/-
  The function both programs compute, stated once over the whole argument arrays, and the two laws of the extended
  reals that join the two spellings of it.

  For a row `xr` of `x` and a row `cr` of `centers` (256 features each) write
    sqd xr cr = (Σ_f xr f · xr f + Σ_f cr f · cr f) − 2 · Σ_f xr f · cr f     the squared distance, expanded,
    phi xr cr = exp (sqd xr cr · (−1/2)).
  One tile of 512 centres contributes  tile = Σ_k phi xr (cs k) · ws k,  and the result at a row is
    logistic (Σ_{s < 8} tile_s + bias),
  the 4096 centres taken as 8 consecutive tiles of 512. Against the plain sum over all 4096 centres this is a
  regrouping of a finite sum, which holds in any commutative monoid, so in particular on the extended reals with
  their infinities; and `(−d) / 2 = d · (−1/2)` holds for every extended real `d`. Neither needs the inputs finite.
-/
import Idealize.ShloMosaic.PureOps.Ideal
import Idealize.ShloMosaic.PureOps.Ideal.Laws
import Idealize.ShloMosaic.Lib.ValueIdx

noncomputable section

namespace RbfSpec

open Idealize.ShloMosaic Idealize.ShloMosaic.ValueIdx

/-! ## The two literals whose values matter -/

/-- The word of `2.0` denotes the real 2. -/
theorem two_eq : Ideal.ofBits .f32 0x40000000#32 = ((2 : ℝ) : EReal) := by
  simp [Ideal.ofBits, Ideal.ieee, -EReal.coe_mul]; norm_num

/-- The word of `-0.5` denotes the real −1/2. -/
theorem negHalf_eq : Ideal.ofBits .f32 0xBF000000#32 = ((-(1 / 2) : ℝ) : EReal) := by
  simp [Ideal.ofBits, Ideal.ieee, -EReal.coe_mul]; norm_num

/-- Negating and halving is multiplying by −1/2, on every extended real. -/
theorem neg_div_two (d : EReal) :
    Ideal.div (-d) (Ideal.ofBits .f32 0x40000000#32) = d * Ideal.ofBits .f32 0xBF000000#32 := by
  rw [two_eq, negHalf_eq, Ideal.div_coe (by norm_num : (2 : ℝ) ≠ 0), EReal.coe_neg, neg_mul, mul_neg]

/-! ## The function -/

/-- The squared distance between two rows in its expanded form. -/
def sqd {D : ℕ} (xr cr : Fin D → EReal) : EReal :=
  ((∑ f, xr f * xr f) + ∑ f, cr f * cr f) - Ideal.ofBits .f32 0x40000000#32 * ∑ f, xr f * cr f

/-- The radial basis value of a row against a centre. -/
def phi {D : ℕ} (xr cr : Fin D → EReal) : EReal :=
  Ideal.exp (sqd xr cr * Ideal.ofBits .f32 0xBF000000#32)

/-- What a tile of `K` centres with weights `ws` adds to a row's sum. -/
def tile {K D : ℕ} (xr : Fin D → EReal) (cs : Fin K → Fin D → EReal) (ws : Fin K → EReal) : EReal :=
  ∑ k, phi xr (cs k) * ws k

/-- Centre `k` of tile `s`, among all 4096. -/
def blk (s : Fin 8) (k : Fin 512) : Fin 4096 := ⟨512 * s.val + k.val, by have := s.isLt; have := k.isLt; omega⟩

/-- The result at one row: the eight tiles' contributions, the bias, the logistic. -/
def rowOut (xr : Fin 256 → EReal) (cs : Fin 4096 → Fin 256 → EReal) (ws : Fin 4096 → EReal) (bias : EReal) : EReal :=
  Ideal.logistic ((∑ s : Fin 8, tile xr (fun k => cs (blk s k)) (fun k => ws (blk s k))) + bias)

/-- The result array as one function of the four argument arrays. -/
def G (X : (⟨2, ![16384, 256]⟩ : Shape).Idx → EReal) (C : (⟨2, ![4096, 256]⟩ : Shape).Idx → EReal)
    (W : (⟨2, ![1, 4096]⟩ : Shape).Idx → EReal) (B : (⟨1, ![1]⟩ : Shape).Idx → EReal) :
    (⟨2, ![16384, 1]⟩ : Shape).Idx → EReal :=
  fun i => rowOut (fun f => X (ix2 (i 0) f)) (fun k f => C (ix2 k f)) (fun k => W (ix2 0 k)) (B (ix1 0))

/-! ## Regrouping the sum over the centres -/

/-- The 4096 centres are the 8 tiles of 512, one after the other. -/
def tiles : Fin 8 × Fin 512 ≃ Fin 4096 := finProdFinEquiv.trans (finCongr (by norm_num))

theorem tiles_apply (s : Fin 8) (k : Fin 512) : tiles (s, k) = blk s k := by
  apply Fin.ext
  show k.val + 512 * s.val = 512 * s.val + k.val
  omega

/-- A sum over all centres is the sum over the tiles of the sums inside each tile. -/
theorem sum_tiles {M : Type*} [AddCommMonoid M] (g : Fin 4096 → M) :
    ∑ k : Fin 4096, g k = ∑ s : Fin 8, ∑ k : Fin 512, g (blk s k) := by
  rw [← Equiv.sum_comp tiles g, Fintype.sum_prod_type]
  exact Finset.sum_congr rfl fun s _ => Finset.sum_congr rfl fun k _ => by rw [tiles_apply]

/-- The reference's spelling of a row's result — one sum over all centres, the exponent as `(−d) / 2`, the logistic
    written out — is `rowOut`. -/
theorem ref_row (xr : Fin 256 → EReal) (cs : Fin 4096 → Fin 256 → EReal) (ws : Fin 4096 → EReal) (bias : EReal) :
    Ideal.div 1 (1 + Ideal.exp (-((∑ k : Fin 4096,
        Ideal.exp (Ideal.div (-(sqd xr (cs k))) (Ideal.ofBits .f32 0x40000000#32)) * ws k) + bias)))
      = rowOut xr cs ws bias := by
  unfold rowOut tile phi
  rw [sum_tiles]
  simp only [neg_div_two]
  rfl

end RbfSpec

end
-- ==== Proof.LibColumn.lean ====
/-
  A matrix's row sums kept as a column, read at an index.

  `jnp.sum(x, axis=1, keepdims=True)` of an `[a, b]` matrix lowers to a lane reduction into `[a]`, a reshape to the
  column `[a, 1]`, and, where the column meets an `[a, c]` matrix, a broadcast along the second axis. Read at an
  index each step only moves coordinates:
    the reduction at `r`       is  Σ_k x[r, k],
    the column at `(r, u)`     is  the vector at `r`      (`u` ranges over the one coordinate of the unit axis),
    the broadcast at `(r, j)`  is  the column at `(r, 0)`.
  The statements are over arbitrary extents and any element type; the sum is over the extended reals.
-/
import Idealize.ShloMosaic.PureOps.Ideal
import Idealize.ShloMosaic.PureOps.Ideal.Laws
import Idealize.ShloMosaic.Lib.Pipeline.Value
import Idealize.ShloMosaic.Lib.ValueIdx

noncomputable section

namespace Idealize.ShloMosaic.ColumnIdx

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its second axis reads, at `r`, the sum of row `r`: the zero accumulator adds
    nothing, and the index with `k` put back on the reduced axis is `(r, k)`. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ src 0x00000000#32 h hφ hacc (ix1 r) = ∑ k : Fin b, src (ix2 r k) :=
  (Ideal.multiReduction_add_single src _ h hφ hacc (ix1 r)).trans
    (Finset.sum_congr rfl fun k _ => congrArg src (funext fun c => Fin.ext (by
      match c with
      | ⟨0, _⟩ => rfl
      | ⟨1, _⟩ => rfl)))

end Idealize.ShloMosaic.ColumnIdx

end
-- ==== Proof.Payload.lean ====
/-
  The body's arithmetic, read at an index over the extended reals.

  With `x0` the batch tile (2048 rows), `x1` the centre tile (512 rows), `x2` the weight tile (one row of 512) and
  `acc` the running column, the body's accumulating store holds, at row `p`,
      acc[p] + Σ_k exp ((Σ_f x0[p,f]² + Σ_f x1[k,f]² − 2 · Σ_f x0[p,f]·x1[k,f]) · (−1/2)) · x2[0,k],
  the specification's `tile` of row `p`; the reset store holds zero; the final store holds the logistic of the column
  plus the bias. The changes of float format are the identity on the extended reals, a matrix product into a zero
  accumulator is the plain sum of products, and the reshapes, transposes and broadcasts only move coordinates.
-/
import proofs.«133548_j17892833755792_1_alg».proof.Proof.Gen.KernelIdeal.Skeleton
import proofs.«133548_j17892833755792_1_alg».proof.Proof.Spec
import proofs.«133548_j17892833755792_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RbfPayload

open Cert.KernelIdeal Cert.KernelIdeal.Gen
open Idealize.ShloMosaic Idealize.ShloMosaic.ValueIdx Idealize.ShloMosaic.ColumnIdx

/-- The record of the cross-term product, `[2048,256] · [256,512]`. -/
abbrev DX : DotDims S2048x256 S256x512 S2048x512 := dot_S2048x256_S256x512_S2048x512_1_0_0_1_n_n
/-- The record of the product with the weights, `[2048,512] · [512,1]`. -/
abbrev DW : DotDims S2048x512 S512x1 S2048x1 := dot_S2048x512_S512x1_S2048x1_1_0_0_1_n_n

/-! ## The two matrix products as sums of products -/

theorem DX_lhs0 (i : S2048x512.Idx) (q : DX.contr.Idx) : (DX.lhsIdx i q 0).val = (i 0).val := by
  unfold DotDims.lhsIdx
  rw [dif_neg (show ¬(0 : Fin S2048x256.rank) ∈ DX.lhsBatch by decide), dif_pos (show (0 : Fin S2048x256.rank) ∈ DX.lhsNonContracting by decide)]
  rfl
theorem DX_lhs1 (i : S2048x512.Idx) (q : DX.contr.Idx) : (DX.lhsIdx i q 1).val = (q ⟨0, by decide⟩).val :=
  DX.lhsIdx_val_of_single rfl i q
theorem DX_rhs0 (i : S2048x512.Idx) (q : DX.contr.Idx) : (DX.rhsIdx i q 0).val = (q ⟨0, by decide⟩).val :=
  DX.rhsIdx_val_of_single rfl i q
theorem DX_rhs1 (i : S2048x512.Idx) (q : DX.contr.Idx) : (DX.rhsIdx i q 1).val = (i 1).val := by
  unfold DotDims.rhsIdx
  rw [dif_neg (show ¬(1 : Fin S256x512.rank) ∈ DX.rhsBatch by decide), dif_pos (show (1 : Fin S256x512.rank) ∈ DX.rhsNonContracting by decide)]
  rfl

/-- The cross-term product at `(p, k)`: row `p` of the left factor against column `k` of the right. -/
theorem mulX_apply (l : FVec Ideal S2048x256 .bf16) (r : FVec Ideal S256x512 .bf16) (p : Fin 2048) (k : Fin 512) :
    matmul DX none l r (constant (F := Ideal) S2048x512 .f32 0x00000000#32) (ix2 p k) = ∑ f : Fin 256, l (ix2 p f) * r (ix2 f k) := by
  simp only [matmul]
  rw [Ideal.matmul_constant_zero_apply, ← Equiv.sum_comp (contrEquiv1 DX 256 rfl rfl).symm]
  refine Finset.sum_congr rfl fun f _ => ?_
  have hf := contrEquiv1_symm_val DX 256 rfl rfl f
  have el : DX.lhsIdx (ix2 p k) ((contrEquiv1 DX 256 rfl rfl).symm f) = ix2 p f := funext fun a => Fin.ext (by
    match a with
    | ⟨0, _⟩ => exact DX_lhs0 _ _
    | ⟨1, _⟩ => exact (DX_lhs1 _ _).trans hf)
  have er : DX.rhsIdx (ix2 p k) ((contrEquiv1 DX 256 rfl rfl).symm f) = ix2 f k := funext fun a => Fin.ext (by
    match a with
    | ⟨0, _⟩ => exact (DX_rhs0 _ _).trans hf
    | ⟨1, _⟩ => exact DX_rhs1 _ _)
  rw [el, er]

theorem DW_lhs0 (i : S2048x1.Idx) (q : DW.contr.Idx) : (DW.lhsIdx i q 0).val = (i 0).val := by
  unfold DotDims.lhsIdx
  rw [dif_neg (show ¬(0 : Fin S2048x512.rank) ∈ DW.lhsBatch by decide), dif_pos (show (0 : Fin S2048x512.rank) ∈ DW.lhsNonContracting by decide)]
  rfl
theorem DW_lhs1 (i : S2048x1.Idx) (q : DW.contr.Idx) : (DW.lhsIdx i q 1).val = (q ⟨0, by decide⟩).val :=
  DW.lhsIdx_val_of_single rfl i q
theorem DW_rhs0 (i : S2048x1.Idx) (q : DW.contr.Idx) : (DW.rhsIdx i q 0).val = (q ⟨0, by decide⟩).val :=
  DW.rhsIdx_val_of_single rfl i q
theorem DW_rhs1 (i : S2048x1.Idx) (q : DW.contr.Idx) : (DW.rhsIdx i q 1).val = (i 1).val := by
  unfold DotDims.rhsIdx
  rw [dif_neg (show ¬(1 : Fin S512x1.rank) ∈ DW.rhsBatch by decide), dif_pos (show (1 : Fin S512x1.rank) ∈ DW.rhsNonContracting by decide)]
  rfl

/-- The product with the weight column at row `p`. -/
theorem mulW_apply (l : FVec Ideal S2048x512 .bf16) (r : FVec Ideal S512x1 .bf16) (p : Fin 2048) (u : Fin 1) :
    matmul DW none l r (constant (F := Ideal) S2048x1 .f32 0x00000000#32) (ix2 p u) = ∑ k : Fin 512, l (ix2 p k) * r (ix2 k u) := by
  simp only [matmul]
  rw [Ideal.matmul_constant_zero_apply, ← Equiv.sum_comp (contrEquiv1 DW 512 rfl rfl).symm]
  refine Finset.sum_congr rfl fun k _ => ?_
  have hk := contrEquiv1_symm_val DW 512 rfl rfl k
  have el : DW.lhsIdx (ix2 p u) ((contrEquiv1 DW 512 rfl rfl).symm k) = ix2 p k := funext fun a => Fin.ext (by
    match a with
    | ⟨0, _⟩ => exact DW_lhs0 _ _
    | ⟨1, _⟩ => exact (DW_lhs1 _ _).trans hk)
  have er : DW.rhsIdx (ix2 p u) ((contrEquiv1 DW 512 rfl rfl).symm k) = ix2 k u := funext fun a => Fin.ext (by
    match a with
    | ⟨0, _⟩ => exact (DW_rhs0 _ _).trans hk
    | ⟨1, _⟩ => exact DW_rhs1 _ _)
  rw [el, er]

/-! ## The stages of the accumulating store, each read at an index -/

/-- The squared norms of the batch tile's rows, as a column. -/
def xsq (x0 : FVec Ideal S2048x256 .f32) : FVec Ideal S2048x1 .f32 :=
  shapeCast S2048x1 (multiReduction .add [1] S2048 (mulf x0 x0) 0x00000000#32 reduces_S2048x256_S2048 (.inl rfl) rfl) shapeCasts_S2048_S2048x1

theorem xsq_apply (x0 : FVec Ideal S2048x256 .f32) (p : Fin 2048) (u : Fin 1) :
    xsq x0 (ix2 p u) = ∑ f : Fin 256, x0 (ix2 p f) * x0 (ix2 p f) :=
  (shapeCast_a_a1_apply _ shapeCasts_S2048_S2048x1 p u).trans (rowSum_apply (mulf x0 x0) reduces_S2048x256_S2048 (.inl rfl) rfl p)

/-- The squared norms of the centre tile's rows, laid out as a row. -/
def csqRow (x1 : FVec Ideal S512x256 .f32) : FVec Ideal S1x512 .f32 :=
  transpose S1x512 [1, 0] (shapeCast S512x1 (multiReduction .add [1] S512 (mulf x1 x1) 0x00000000#32 reduces_S512x256_S512 (.inl rfl) rfl) shapeCasts_S512_S512x1) transposes_S512x1_p1_0_S1x512

theorem csqRow_apply (x1 : FVec Ideal S512x256 .f32) (u : Fin 1) (k : Fin 512) :
    csqRow x1 (ix2 u k) = ∑ f : Fin 256, x1 (ix2 k f) * x1 (ix2 k f) :=
  (transpose_ix2_apply _ transposes_S512x1_p1_0_S1x512 u k).trans
    ((shapeCast_a_a1_apply _ shapeCasts_S512_S512x1 k u).trans (rowSum_apply (mulf x1 x1) reduces_S512x256_S512 (.inl rfl) rfl k))

/-- The inner products of the batch tile's rows with the centre tile's rows. -/
def cross (x0 : FVec Ideal S2048x256 .f32) (x1 : FVec Ideal S512x256 .f32) : FVec Ideal S2048x512 .f32 :=
  matmul DX none (truncf .bf16 x0 bitsLt_bf16_f32) (transpose S256x512 [1, 0] (truncf .bf16 x1 bitsLt_bf16_f32) transposes_S512x256_p1_0_S256x512)
    (constant (F := Ideal) S2048x512 .f32 0x00000000#32)

theorem cross_apply (x0 : FVec Ideal S2048x256 .f32) (x1 : FVec Ideal S512x256 .f32) (p : Fin 2048) (k : Fin 512) :
    cross x0 x1 (ix2 p k) = ∑ f : Fin 256, x0 (ix2 p f) * x1 (ix2 k f) :=
  (mulX_apply _ _ p k).trans (Finset.sum_congr rfl fun f _ =>
    congrArg (x0 (ix2 p f) * ·) (transpose_ix2_apply (truncf .bf16 x1 bitsLt_bf16_f32) transposes_S512x256_p1_0_S256x512 f k))

/-- The weight tile as a column. -/
def wcol (x2 : FVec Ideal S1x512 .f32) : FVec Ideal S512x1 .bf16 :=
  transpose S512x1 [1, 0] (truncf .bf16 x2 bitsLt_bf16_f32) transposes_S1x512_p1_0_S512x1

theorem wcol_apply (x2 : FVec Ideal S1x512 .f32) (k : Fin 512) (u : Fin 1) : wcol x2 (ix2 k u) = x2 (ix2 u k) :=
  transpose_ix2_apply (truncf .bf16 x2 bitsLt_bf16_f32) transposes_S1x512_p1_0_S512x1 k u

/-- The radial basis values of the batch tile's rows against the centre tile's rows. -/
def phiTile (x0 : FVec Ideal S2048x256 .f32) (x1 : FVec Ideal S512x256 .f32) : FVec Ideal S2048x512 .f32 :=
  exp (mulf (subf (addf (broadcastTo S2048x512 (xsq x0) broadcasts_S2048x1_S2048x512) (broadcastTo S2048x512 (csqRow x1) broadcasts_S1x512_S2048x512))
      (mulf (broadcast S2048x512 (Scalar.ofBits (F := Ideal) .f32 0x40000000#32)) (cross x0 x1)))
    (broadcast S2048x512 (Scalar.ofBits (F := Ideal) .f32 0xBF000000#32)))

theorem phiTile_apply (x0 : FVec Ideal S2048x256 .f32) (x1 : FVec Ideal S512x256 .f32) (p : Fin 2048) (k : Fin 512) :
    phiTile x0 x1 (ix2 p k) = RbfSpec.phi (fun f => x0 (ix2 p f)) (fun f => x1 (ix2 k f)) := by
  show Ideal.exp (((broadcastTo S2048x512 (xsq x0) broadcasts_S2048x1_S2048x512 (ix2 p k)
      + broadcastTo S2048x512 (csqRow x1) broadcasts_S1x512_S2048x512 (ix2 p k))
      - Ideal.ofBits .f32 0x40000000#32 * cross x0 x1 (ix2 p k)) * Ideal.ofBits .f32 0xBF000000#32) = _
  rw [broadcastTo_a1_ab_apply, broadcastTo_1b_ab_apply, xsq_apply, csqRow_apply, cross_apply]
  rfl

/-! ## The three stores -/

/-- The accumulating store is the running column plus the product of the radial basis values with the weights. -/
theorem pay3_eq (x0 : FVec Ideal S2048x256 .f32) (x1 : FVec Ideal S512x256 .f32) (x2 : FVec Ideal S1x512 .f32) (acc : FVec Ideal S2048x1 .f32) :
    k0_pay3 (F := Ideal) x0 x1 x2 acc
      = shapeCast S2048x1 (addf acc (matmul DW none (truncf .bf16 (phiTile x0 x1) bitsLt_bf16_f32) (wcol x2)
          (constant (F := Ideal) S2048x1 .f32 0x00000000#32))) shapeCasts_S2048x1_S2048x1 := rfl

/-- At row `p` it adds the specification's tile contribution of that row. -/
theorem pay3_apply (x0 : FVec Ideal S2048x256 .f32) (x1 : FVec Ideal S512x256 .f32) (x2 : FVec Ideal S1x512 .f32) (acc : FVec Ideal S2048x1 .f32)
    (p : Fin 2048) (u : Fin 1) :
    k0_pay3 (F := Ideal) x0 x1 x2 acc (ix2 p u)
      = acc (ix2 p u) + RbfSpec.tile (fun f => x0 (ix2 p f)) (fun k f => x1 (ix2 k f)) (fun k => x2 (ix2 (0 : Fin 1) k)) := by
  rw [pay3_eq, shapeCast_self]
  show acc (ix2 p u) + _ = _
  refine congrArg (acc (ix2 p u) + ·) ?_
  refine (mulW_apply _ _ p u).trans ?_
  unfold RbfSpec.tile
  refine Finset.sum_congr rfl fun k _ => ?_
  have hu : u = (0 : Fin 1) := Subsingleton.elim _ _
  subst hu
  show phiTile x0 x1 (ix2 p k) * wcol x2 (ix2 k 0) = _
  rw [phiTile_apply, wcol_apply]

/-- The reset store is the zero column. -/
theorem pay2_apply (i : S2048x1.Idx) : k0_pay2 (F := Ideal) i = 0 := by
  unfold k0_pay2
  rw [shapeCast_self]
  exact Ideal.ofBits_zero_f32

/-- The final store is the logistic of the column plus the bias. -/
theorem pay1_apply (x3 : FVec Ideal S1 .f32) (acc : FVec Ideal S2048x1 .f32) (i : S2048x1.Idx) :
    k0_pay1 (F := Ideal) x3 acc i = Ideal.logistic (acc i + x3 (ix1 (0 : Fin 1))) := by
  show Ideal.logistic (acc i + x3 _) = _
  exact congrArg (fun z => Ideal.logistic (acc i + x3 z)) (funext fun a => Fin.ext (by match a with | ⟨0, _⟩ => rfl))

end Cert.KernelIdeal.RbfPayload

end
-- ==== Proof.Blocks.lean ====
/-
  Which part of each argument array a grid point sees.

  The grid is 8 × 8, walked row tile by row tile: point `t` is row tile `t / 8`, centre tile `t % 8`. At point `t`
    the batch block   is rows  2048·(t/8) … 2048·(t/8) + 2047  of `x`,
    the centre block  is rows  512·(t%8)  … 512·(t%8) + 511    of `centers`,
    the weight block  is columns 512·(t%8) … 512·(t%8) + 511   of `w`,
    the bias block    is `b` itself,
  and the output block, written back at the last centre tile only, is rows 2048·(t/8) … of the result. A block's
  coordinate is always block index × block size + the coordinate inside the block, so each read is one `omega` away
  from the decided table of block indices.
-/
import proofs.«133548_j17892833755792_1_alg».proof.Proof.Gen.KernelIdeal.Value
import proofs.«133548_j17892833755792_1_alg».proof.Proof.Spec
import Idealize.ShloMosaic.Lib.Pipeline.Value
import Idealize.ShloMosaic.Lib.ValueIdx

set_option maxRecDepth 16384

noncomputable section

namespace Cert.KernelIdeal.RbfBlocks

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The block indices of the five windows at every grid point. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = t.val % 8
    ∧ win0_3.index t (0 : Fin 1) = 0
    ∧ win0_4.index t (0 : Fin 2) = t.val / 8 ∧ win0_4.index t (1 : Fin 2) = 0 :=
  (by decide +kernel : ∀ t : Fin grid0.N, _)

/-- The batch block at point `t`, at `(p, f)`, is `x` at row `2048·(t/8) + p`. -/
theorem xblk_apply (c : Dev nD) (t : Fin cfg0.N) (p : Fin 2048) (f : Fin 256) (r : Fin 16384)
    (hr : r.val = 2048 * (t.val / 8) + p.val) :
    (iblk m c 0 t : FVec Ideal S2048x256 .f32) (ix2 p f) = m ((c : Thread nD τ).loc main_arg0) (ix2 r f) := by
  obtain ⟨e0, e1, -⟩ := idx_facts t
  unfold iblk
  rw [View.read_apply]
  show V m c main_arg0 _ = m (c.tc.loc main_arg0) _
  unfold V
  congr 1
  funext a
  apply Fin.ext
  match a with
  | ⟨0, _⟩ => show win0_0.index t 0 * 2048 + 1 * p.val = r.val; rw [e0, hr]; omega
  | ⟨1, _⟩ => show win0_0.index t 1 * 256 + 1 * f.val = f.val; rw [e1]; omega

/-- The centre block at point `t`, at `(k, f)`, is `centers` at row `512·(t%8) + k`. -/
theorem cblk_apply (c : Dev nD) (t : Fin cfg0.N) (k : Fin 512) (f : Fin 256) (r : Fin 4096)
    (hr : r.val = 512 * (t.val % 8) + k.val) :
    (iblk m c 1 t : FVec Ideal S512x256 .f32) (ix2 k f) = m ((c : Thread nD τ).loc main_arg1) (ix2 r f) := by
  obtain ⟨-, -, e0, e1, -⟩ := idx_facts t
  unfold iblk
  rw [View.read_apply]
  show V m c main_arg1 _ = m (c.tc.loc main_arg1) _
  unfold V
  congr 1
  funext a
  apply Fin.ext
  match a with
  | ⟨0, _⟩ => show win0_1.index t 0 * 512 + 1 * k.val = r.val; rw [e0, hr]; omega
  | ⟨1, _⟩ => show win0_1.index t 1 * 256 + 1 * f.val = f.val; rw [e1]; omega

/-- The weight block at point `t`, at `(0, k)`, is `w` at column `512·(t%8) + k`. -/
theorem wblk_apply (c : Dev nD) (t : Fin cfg0.N) (u : Fin 1) (k : Fin 512) (r : Fin 4096)
    (hr : r.val = 512 * (t.val % 8) + k.val) :
    (iblk m c 2 t : FVec Ideal S1x512 .f32) (ix2 u k) = m ((c : Thread nD τ).loc main_arg2) (ix2 (0 : Fin 1) r) := by
  obtain ⟨-, -, -, -, e0, e1, -⟩ := idx_facts t
  have hu : u.val = 0 := by omega
  unfold iblk
  rw [View.read_apply]
  show V m c main_arg2 _ = m (c.tc.loc main_arg2) _
  unfold V
  congr 1
  funext a
  apply Fin.ext
  match a with
  | ⟨0, _⟩ => show win0_2.index t 0 * 1 + 1 * u.val = 0; rw [e0, hu]
  | ⟨1, _⟩ => show win0_2.index t 1 * 512 + 1 * k.val = r.val; rw [e1, hr]; omega

/-- The bias block is `b`. -/
theorem bblk_apply (c : Dev nD) (t : Fin cfg0.N) (u : Fin 1) :
    (iblk m c 3 t : FVec Ideal S1 .f32) (ix1 u) = m ((c : Thread nD τ).loc main_arg3) (ix1 (0 : Fin 1)) := by
  obtain ⟨-, -, -, -, -, -, e0, -⟩ := idx_facts t
  have hu : u.val = 0 := by omega
  unfold iblk
  rw [View.read_apply]
  show V m c main_arg3 _ = m (c.tc.loc main_arg3) _
  unfold V
  congr 1
  funext a
  apply Fin.ext
  match a with
  | ⟨0, _⟩ => show win0_3.index t 0 * 1 + 1 * u.val = 0; rw [e0, hu]

/-- What the centre tile of point `t` adds to row `p` of the point's batch tile: the specification's `tile` of the
    point's three blocks. -/
def tileAt (c : Dev nD) (t : Fin cfg0.N) (p : Fin 2048) : EReal :=
  RbfSpec.tile (fun f => (iblk m c 0 t : FVec Ideal S2048x256 .f32) (ix2 p f))
    (fun k f => (iblk m c 1 t : FVec Ideal S512x256 .f32) (ix2 k f))
    (fun k => (iblk m c 2 t : FVec Ideal S1x512 .f32) (ix2 (0 : Fin 1) k))

/-- At the point of row tile `q` and centre tile `s` it is the specification's tile `s` of row `2048·q + p` of the
    whole arrays. -/
theorem tileAt_eq (c : Dev nD) (t : Fin cfg0.N) (q s : Fin 8) (ht : t.val = 8 * q.val + s.val) (p : Fin 2048) (r : Fin 16384)
    (hr : r.val = 2048 * q.val + p.val) :
    tileAt m c t p = RbfSpec.tile (fun f => m ((c : Thread nD τ).loc main_arg0) (ix2 r f))
      (fun k f => m ((c : Thread nD τ).loc main_arg1) (ix2 (RbfSpec.blk s k) f))
      (fun k => m ((c : Thread nD τ).loc main_arg2) (ix2 (0 : Fin 1) (RbfSpec.blk s k))) := by
  have hq : t.val / 8 = q.val := by have := s.isLt; omega
  have hs : t.val % 8 = s.val := by have := s.isLt; omega
  unfold tileAt
  congr 1
  · funext f; exact xblk_apply m c t p f r (by rw [hq]; exact hr)
  · funext k f; exact cblk_apply m c t k f (RbfSpec.blk s k) (by rw [hs]; rfl)
  · funext k; exact wblk_apply m c t 0 k (RbfSpec.blk s k) (by rw [hs]; rfl)

end Cert.KernelIdeal.RbfBlocks

end
-- ==== Proof.Fold.lean ====
/-
  The running column over one row tile's eight grid points is a sum.

  Along the eight points of a row tile the scratch column starts, at the first centre tile, from zero plus that
  tile's contribution, and at each later centre tile gains that tile's contribution. So after the last of the eight
  points it holds, at row `p`,  0 + Σ_{s < 8} (contribution of centre tile `s` to row `p`),  and the output block
  stored at that point is the logistic of this plus the bias. No property of the extended reals beyond their being
  a commutative monoid under addition is used.
-/
import proofs.«133548_j17892833755792_1_alg».proof.Proof.Gen.KernelIdeal.Value
import proofs.«133548_j17892833755792_1_alg».proof.Proof.Pieces
import proofs.«133548_j17892833755792_1_alg».proof.Proof.Payload
import proofs.«133548_j17892833755792_1_alg».proof.Proof.Blocks
import Idealize.ShloMosaic.Lib.Pipeline.Value
import Idealize.ShloMosaic.Lib.ValueIdx

set_option maxRecDepth 16384

noncomputable section

namespace Cert.KernelIdeal.RbfFold

open Cert.KernelIdeal Cert.KernelIdeal.Gen Cert.KernelIdeal.Value
open Cert.KernelIdeal.RbfPieces Cert.KernelIdeal.RbfPayload Cert.KernelIdeal.RbfBlocks
open Idealize.ShloMosaic Idealize.ShloMosaic.TcCoe Idealize.SL.Sem Idealize.ShloMosaic.ValueIdx

variable (m : (ℓ : Loc nD τ sig) → Buf (Elt Ideal) ℓ)

/-- What grid point `n` adds to the column, at a column index; zero for a number that is no grid point. -/
def addend (c : Dev nD) (n : ℕ) (i : S2048x1.Idx) : EReal :=
  if h : n < cfg0.N then tileAt m c ⟨n, h⟩ ⟨(i 0).val, idx2_lt0 i⟩ else 0

theorem addend_of_lt (c : Dev nD) (n : ℕ) (h : n < cfg0.N) (p : Fin 2048) (u : Fin 1) :
    addend m c n (ix2 p u) = tileAt m c ⟨n, h⟩ p := by
  unfold addend
  rw [dif_pos h]

/-- At the first centre tile the column is reset: zero plus the point's contribution, whatever it held. -/
theorem scAt_first (c : Dev nD) (n : ℕ) (hb : n < cfg0.N) (h0 : n % 8 = 0) (acc : Vec Ideal S2048x1 .f32) (i : S2048x1.Idx) :
    scAt0_0 m c n hb acc i = 0 + addend m c n i := by
  obtain ⟨p, u, rfl⟩ : ∃ (p : Fin 2048) (u : Fin 1), i = ix2 p u := ⟨i 0, i 1, eq_ix2 i⟩
  have h1 : ¬n % 8 = 7 := by omega
  unfold scAt0_0
  rw [dif_pos h0, dif_neg h1]
  refine (congrFun (scratch_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))) (ix2 p u)).trans ?_
  refine (pay3_apply (iblk m c 0 (⟨n, hb⟩ : Fin cfg0.N)) (iblk m c 1 (⟨n, hb⟩ : Fin cfg0.N)) (iblk m c 2 (⟨n, hb⟩ : Fin cfg0.N)) (k0_pay2 (F := Ideal)) p u).trans ?_
  rw [pay2_apply, addend_of_lt m c n hb p u]
  rfl

/-- At every other centre tile the column gains the point's contribution. -/
theorem scAt_later (c : Dev nD) (n : ℕ) (hb : n < cfg0.N) (h0 : ¬n % 8 = 0) (acc : Vec Ideal S2048x1 .f32) (i : S2048x1.Idx) :
    scAt0_0 m c n hb acc i = acc i + addend m c n i := by
  obtain ⟨p, u, rfl⟩ : ∃ (p : Fin 2048) (u : Fin 1), i = ix2 p u := ⟨i 0, i 1, eq_ix2 i⟩
  unfold scAt0_0
  rw [dif_neg h0]
  by_cases h1 : n % 8 = 7
  · rw [dif_pos h1]
    refine (congrFun (scratch_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc) (ix2 p u)).trans ?_
    refine (pay3_apply (iblk m c 0 (⟨n, hb⟩ : Fin cfg0.N)) (iblk m c 1 (⟨n, hb⟩ : Fin cfg0.N)) (iblk m c 2 (⟨n, hb⟩ : Fin cfg0.N)) acc p u).trans ?_
    rw [addend_of_lt m c n hb p u]
    rfl
  · rw [dif_neg h1]
    refine (congrFun (scratch_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc) (ix2 p u)).trans ?_
    refine (pay3_apply (iblk m c 0 (⟨n, hb⟩ : Fin cfg0.N)) (iblk m c 1 (⟨n, hb⟩ : Fin cfg0.N)) (iblk m c 2 (⟨n, hb⟩ : Fin cfg0.N)) acc p u).trans ?_
    rw [addend_of_lt m c n hb p u]
    rfl

/-- The column after `j + 1` points of row tile `q`: zero plus the contributions of those points. -/
theorem column_run (c : Dev nD) (q : Fin 8) (j : ℕ) (hj : j ≤ 7) (h : 8 * q.val + j < cfg0.N) (i : S2048x1.Idx) :
    Pipeline.accAt (fun n h => scAt0_0 m c n h (VS0_0.read (Elt Ideal) VS0_0.junk)) (scAt0_0 m c) (8 * q.val) j h i
      = 0 + ∑ s ∈ Finset.range (j + 1), addend m c (8 * q.val + s) i :=
  Pipeline.accAt_add_apply (fun n h => scAt0_0 m c n h (VS0_0.read (Elt Ideal) VS0_0.junk)) (scAt0_0 m c)
    (fun _ => (0 : EReal)) (addend m c) (8 * q.val) 7
    (fun h i => scAt_first m c (8 * q.val) h (by omega) _ i)
    (fun n h acc i hlo hhi => scAt_later m c n h (by omega) acc i)
    j hj h i

/-- The column after the last point of row tile `q`. -/
theorem column_last (c : Dev nD) (t : Fin cfg0.N) (q : Fin 8) (ht : t.val = 8 * q.val + 7) (i : S2048x1.Idx) :
    (outsAt0 m c t.val t.isLt).2 i = 0 + ∑ s ∈ Finset.range 8, addend m c (8 * q.val + s) i := by
  have hN : cfg0.N = 64 := N_0
  have e : ∀ (b j : ℕ) (h : b + j < cfg0.N) (h' : 8 * q.val + 7 < cfg0.N), b = 8 * q.val → j = 7 →
      Pipeline.accAt (fun n h => scAt0_0 m c n h (VS0_0.read (Elt Ideal) VS0_0.junk)) (scAt0_0 m c) b j h
        = Pipeline.accAt (fun n h => scAt0_0 m c n h (VS0_0.read (Elt Ideal) VS0_0.junk)) (scAt0_0 m c) (8 * q.val) 7 h' := by
    intro b j h h' hb hj; subst hb; subst hj; rfl
  have hlt : 8 * q.val + 7 < cfg0.N := by have := q.isLt; omega
  rw [soutsAt0_0_eq m c t, e _ _ _ hlt (by omega) (by omega)]
  exact column_run m c q 7 le_rfl hlt i

/-- At the last centre tile the output block is the final store over the column the same point leaves. -/
theorem out_of_column (c : Dev nD) (t : Fin cfg0.N) (h0 : ¬t.val % 8 = 0) (h1 : t.val % 8 = 7) :
    (outsAt0 m c t.val t.isLt).1 = k0_pay1 (F := Ideal) (iblk m c 3 t) (outsAt0 m c t.val t.isLt).2 := by
  rw [outsAt0_C m c t h0 h1]
  dsimp only
  generalize (outsAt0 m c (t.val - 1) _).2 = prev
  exact (out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) prev).trans
    (congrArg (k0_pay1 (F := Ideal) (iblk m c 3 t)) (scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) prev).symm)

/-- The output block stored at the last point of row tile `q`, at row `p`. -/
theorem out_last (c : Dev nD) (t : Fin cfg0.N) (q : Fin 8) (ht : t.val = 8 * q.val + 7) (p : Fin 2048) (u : Fin 1) :
    (outsAt0 m c t.val t.isLt).1 (ix2 p u)
      = Ideal.logistic ((0 + ∑ s ∈ Finset.range 8, addend m c (8 * q.val + s) (ix2 p u)) + m ((c : Thread nD τ).loc main_arg3) (ix1 (0 : Fin 1))) := by
  rw [out_of_column m c t (by omega) (by omega)]
  refine (pay1_apply (iblk m c 3 t) _ (ix2 p u)).trans ?_
  rw [column_last m c t q ht, bblk_apply m c t 0]

end Cert.KernelIdeal.RbfFold

end
-- ==== Proof.KernelValue.lean ====
/-
  The kernel's result array is the specification of its arguments.

  The output block of row tile `q` is written back once, at the last of the tile's eight grid points, and holds at
  row `p` the logistic of the eight centre tiles' contributions to row `2048·q + p` plus the bias: the specification's
  row result there. The eight written-back blocks are the eight consecutive row tiles of the result, so together they
  cover it, and the array after the run is the specification of the argument arrays, row by row.
-/
import proofs.«133548_j17892833755792_1_alg».proof.Proof.Gen.KernelIdeal.Value
import proofs.«133548_j17892833755792_1_alg».proof.Proof.Fold
import proofs.«133548_j17892833755792_1_alg».proof.Proof.Blocks
import proofs.«133548_j17892833755792_1_alg».proof.Proof.Spec
import Idealize.ShloMosaic.Lib.Pipeline.Value
import Idealize.ShloMosaic.Lib.ValueIdx

set_option maxRecDepth 16384

noncomputable section

namespace Cert.KernelIdeal.RbfValue

open Cert.KernelIdeal Cert.KernelIdeal.Gen Cert.KernelIdeal.Value
open Cert.KernelIdeal.RbfBlocks Cert.KernelIdeal.RbfFold
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- What the result array holds after the run: the specification of the four argument arrays. -/
abbrev result (c : Dev nD) : Buf (Elt Ideal) ((c : Thread nD τ).loc main_v0) :=
  RbfSpec.G (m ((c : Thread nD τ).loc main_arg0)) (m ((c : Thread nD τ).loc main_arg1)) (m ((c : Thread nD τ).loc main_arg2)) (m ((c : Thread nD τ).loc main_arg3))

/-- The eight grid points of row tile `q` contribute the specification's eight tiles of row `2048·q + p`. -/
theorem sum_points (c : Dev nD) (q : Fin 8) (p : Fin 2048) (u : Fin 1) (r : Fin 16384) (hr : r.val = 2048 * q.val + p.val) :
    Ideal.logistic ((0 + ∑ s ∈ Finset.range 8, addend m c (8 * q.val + s) (ix2 p u)) + m ((c : Thread nD τ).loc main_arg3) (ix1 (0 : Fin 1)))
      = RbfSpec.rowOut (fun f => m ((c : Thread nD τ).loc main_arg0) (ix2 r f)) (fun k f => m ((c : Thread nD τ).loc main_arg1) (ix2 k f))
          (fun k => m ((c : Thread nD τ).loc main_arg2) (ix2 (0 : Fin 1) k)) (m ((c : Thread nD τ).loc main_arg3) (ix1 (0 : Fin 1))) := by
  have hN : cfg0.N = 64 := N_0
  unfold RbfSpec.rowOut
  rw [zero_add, Finset.sum_range]
  refine congrArg (fun z => Ideal.logistic (z + m ((c : Thread nD τ).loc main_arg3) (ix1 (0 : Fin 1)))) (Finset.sum_congr rfl fun s _ => ?_)
  have hlt : 8 * q.val + s.val < cfg0.N := by have := q.isLt; have := s.isLt; omega
  rw [addend_of_lt m c _ hlt p u]
  exact tileAt_eq m c ⟨8 * q.val + s.val, hlt⟩ q s rfl p r hr

/-- An index of the result is in point `t`'s block iff each coordinate is in the block's range on its axis. -/
theorem mem_blk (t : Fin cfg0.N) (i : S16384x1.Idx) :
    i ∈ ((cfg0.win 4).blk t).view.set ↔ ∀ a : Fin 2, win0_4.index t a * S2048x1.size a ≤ (i a).val ∧ (i a).val < win0_4.index t a * S2048x1.size a + S2048x1.size a := by
  show i ∈ ((View.whole main_v0).slice (win0_4.rect t)).set ↔ _
  rw [View.set_slice_whole, Rect.mem_set_unit]
  exact Iff.rfl

/-- What a flushing point writes back is its block of the specification. -/
theorem flushed_eq (c : Dev nD) (t : Fin cfg0.N) (hf : (cfg0.win 4).flush t = true) :
    (dats m 0 c).flushed 4 t = ((cfg0.win 4).blk t).view.read (Elt Ideal) (result m c) := by
  have h7 : t.val % 8 = 7 := (flush0_4 t).mp hf
  have hN : cfg0.N = 64 := N_0
  have htl : t.val < cfg0.N := t.isLt
  obtain ⟨-, -, -, -, -, -, -, e0, e1⟩ := idx_facts t
  have hq : t.val / 8 < 8 := by omega
  have ht : t.val = 8 * (⟨t.val / 8, hq⟩ : Fin 8).val + 7 := by show t.val = 8 * (t.val / 8) + 7; omega
  rw [flushed4]
  funext j
  obtain ⟨p, u, rfl⟩ : ∃ (p : Fin 2048) (u : Fin 1), j = ix2 p u := ⟨j 0, j 1, eq_ix2 j⟩
  have hp := p.isLt
  have hu : u.val = 0 := by omega
  rw [View.read_apply]
  show (outsAt0 m c t.val t.isLt).1 (ix2 p u) = result m c _
  have hemb : ((cfg0.win 4).blk t).view.emb (ix2 p u)
      = (ix2 (⟨2048 * (t.val / 8) + p.val, by omega⟩ : Fin 16384) (0 : Fin 1) : S16384x1.Idx) := by
    funext a
    apply Fin.ext
    match a with
    | ⟨0, _⟩ => show win0_4.index t 0 * 2048 + 1 * p.val = 2048 * (t.val / 8) + p.val; rw [e0]; omega
    | ⟨1, _⟩ => show win0_4.index t 1 * 1 + 1 * u.val = 0; rw [e1, hu]
  rw [hemb, out_last m c t ⟨t.val / 8, hq⟩ ht p u]
  exact sum_points m c ⟨t.val / 8, hq⟩ p u _ rfl

/-- Every row of the result lies in the block some flushing point writes back: row `r` in that of the last point of
    row tile `r / 2048`. -/
theorem cover (i : S16384x1.Idx) : ∃ t : Fin cfg0.N, (cfg0.win 4).flush t = true ∧ i ∈ ((cfg0.win 4).blk t).view.set := by
  have h0 : (i 0).val < 16384 := (i 0).isLt
  have h1 : (i 1).val < 1 := (i 1).isLt
  have hN : cfg0.N = 64 := N_0
  have hlt : 8 * ((i 0).val / 2048) + 7 < cfg0.N := by omega
  obtain ⟨-, -, -, -, -, -, -, e0, e1⟩ := idx_facts ⟨8 * ((i 0).val / 2048) + 7, hlt⟩
  refine ⟨⟨8 * ((i 0).val / 2048) + 7, hlt⟩, (flush0_4 _).mpr (by show (8 * ((i 0).val / 2048) + 7) % 8 = 7; omega), ?_⟩
  rw [mem_blk]
  intro a
  match a with
  | ⟨0, _⟩ =>
    show win0_4.index ⟨8 * ((i 0).val / 2048) + 7, hlt⟩ 0 * 2048 ≤ (i 0).val ∧ (i 0).val < win0_4.index ⟨8 * ((i 0).val / 2048) + 7, hlt⟩ 0 * 2048 + 2048
    rw [e0]
    show (8 * ((i 0).val / 2048) + 7) / 8 * 2048 ≤ (i 0).val ∧ (i 0).val < (8 * ((i 0).val / 2048) + 7) / 8 * 2048 + 2048
    omega
  | ⟨1, _⟩ =>
    show win0_4.index ⟨8 * ((i 0).val / 2048) + 7, hlt⟩ 1 * 1 ≤ (i 1).val ∧ (i 1).val < win0_4.index ⟨8 * ((i 0).val / 2048) + 7, hlt⟩ 1 * 1 + 1
    rw [e1]
    omega

/-- The result array after the run. -/
theorem final (c : Dev nD) : (dats m 0 c).arrAt 4 cfg0.N = result m c :=
  (dats m 0 c).arrAt_eq_of_cover 4 (result m c) (flushed_eq m c) cover

/-- The kernel's run: every weakly fair execution terminates, the result array at the specification of the
    arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.RbfValue

end
-- ==== Proof.RefIsSpec.lean ====
/-
  The reference computes the specification.

  Read one operation at a time and at one row `r`, the reference is
    1 / (1 + exp (−(Σ_k exp ((−d(r,k)) / 2) · w[0,k] + b[0]))),   d(r,k) = ((0 + Σ_f x²) + (0 + Σ_f c²)) − 2 · Σ_f x·c,
  the sum over all 4096 centres. Its broadcasts and its transpose only move indices: every operand is read at a
  row `r` of `x`, a row `k` of `centers`, column `k` of `w` and the one entry of `b`. The two zeros a host sum
  starts from vanish, and what remains is the specification's row result in the reference's spelling.
-/
import proofs.«133548_j17892833755792_1_alg».proof.Proof.Gen.ReferenceIdeal.Read
import proofs.«133548_j17892833755792_1_alg».proof.Proof.Spec
import Idealize.ShloMosaic.Lib.IdealHost

noncomputable section

namespace Cert.ReferenceIdeal.RbfRef

open Cert.ReferenceIdeal Cert.ReferenceIdeal.Gen Cert.ReferenceIdeal.Read
open Idealize.ShloMosaic Idealize.ShloMosaic.ValueIdx

/-! ## Where the composed index functions land -/

/-- Row `r`'s squared norm reads `x` at row `r`. -/
theorem ix_xsq (i : S16384x1.Idx) (k : Fin 4096) (f : Fin 256) :
    idx_main_v1 (idx_main_v2 (idx_main_v7 (lidx_main_v18 i k))) f = ix2 (i 0) f :=
  funext fun a => Fin.ext (by match a with | ⟨0, _⟩ => rfl | ⟨1, _⟩ => rfl)

/-- Centre `k`'s squared norm reads `centers` at row `k`. -/
theorem ix_csq (i : S16384x1.Idx) (k : Fin 4096) (f : Fin 256) :
    idx_main_v4 (idx_main_v6 (idx_main_v8 (lidx_main_v18 i k))) f = ix2 k f :=
  funext fun a => Fin.ext (by match a with | ⟨0, _⟩ => rfl | ⟨1, _⟩ => rfl)

/-- The cross term at (r, k) reads `x` at row `r` -/
theorem ix_cross_l (i : S16384x1.Idx) (k : Fin 4096) (f : Fin 256) :
    lidx_main_v5 (lidx_main_v18 i k) f = ix2 (i 0) f :=
  funext fun a => Fin.ext (by match a with | ⟨0, _⟩ => rfl | ⟨1, _⟩ => rfl)

/-- and `centers` at row `k`. -/
theorem ix_cross_r (i : S16384x1.Idx) (k : Fin 4096) (f : Fin 256) :
    ridx_main_v5 (lidx_main_v18 i k) f = ix2 k f :=
  funext fun a => Fin.ext (by match a with | ⟨0, _⟩ => rfl | ⟨1, _⟩ => rfl)

/-- The transposed weights at row `k` are `w[0, k]`. -/
theorem ix_w (i : S16384x1.Idx) (k : Fin 4096) :
    idx_main_v17 (ridx_main_v18 i k) = ix2 (0 : Fin 1) k :=
  funext fun a => Fin.ext (by
    match a with
    | ⟨0, _⟩ => show (i 1).val = 0; have h : (i 1).val < 1 := (i 1).isLt; omega
    | ⟨1, _⟩ => rfl)

/-- The broadcast bias is `b[0]` at every row. -/
theorem ix_b (i : S16384x1.Idx) : idx_main_v19 (idx_main_v20 i) = ix1 (0 : Fin 1) :=
  funext fun a => Fin.ext (by match a with | ⟨0, _⟩ => rfl)

/-! ## The reference is the specification -/

theorem result_eq (x0 : (⟨S16384x256, .f32⟩ : BufTy).Contents (Elt Ideal)) (x1 : (⟨S4096x256, .f32⟩ : BufTy).Contents (Elt Ideal))
    (x2 : (⟨S1x4096, .f32⟩ : BufTy).Contents (Elt Ideal)) (x3 : (⟨S1, .f32⟩ : BufTy).Contents (Elt Ideal)) :
    val_main_v27 (F := Ideal) x0 x1 x2 x3 = RbfSpec.G x0 x1 x2 x3 := by
  funext i
  simp only [val_main_v27_apply, val_main_v26_apply, val_main_cst_4_apply, val_main_v25_apply, val_main_v24_apply, val_main_cst_3_apply, val_main_v23_apply, val_main_v22_apply, val_main_v21_apply, val_main_v20_apply, val_main_v19_apply, val_main_v18_apply, val_main_v17_apply, val_main_v16_apply, val_main_v15_apply, val_main_v14_apply, val_main_cst_2_apply, val_main_v13_apply, val_main_v12_apply, val_main_v11_apply, val_main_v10_apply, val_main_cst_1_apply, val_main_v9_apply, val_main_v8_apply, val_main_v7_apply, val_main_v6_apply, val_main_v5_apply, val_main_v4_apply, val_main_cst_0_apply, val_main_v3_apply, val_main_v2_apply, val_main_v1_apply, val_main_cst_apply, val_main_v0_apply]
  simp only [Ideal.mulf_def, Ideal.addf_def, Ideal.subf_def, Ideal.hostDivf_def, Ideal.hostUnary_exp_def,
    Ideal.hostNegf_def, Ideal.negf_def, Ideal.ofBits_def, Ideal.ofBits_zero_f32, Ideal.ofBits_one_f32, zero_add,
    ix_xsq, ix_csq, ix_cross_l, ix_cross_r, ix_w, ix_b]
  exact RbfSpec.ref_row (fun f => x0 (ix2 (i 0) f)) (fun k f => x1 (ix2 k f)) (fun k => x2 (ix2 (0 : Fin 1) k)) (x3 (ix1 (0 : Fin 1)))

end Cert.ReferenceIdeal.RbfRef

end
-- ==== Proof.lean ====
/-
  A radial-basis layer: for every row `r` of `x` (16384 rows of 256 features), with 4096 centres `c_k`, weights
  `w_k` and a bias `b`,
      out[r] = logistic (Σ_k exp (−‖x_r − c_k‖² / 2) · w_k + b),     ‖x_r − c_k‖² expanded as ‖x_r‖² + ‖c_k‖² − 2·x_r·c_k.

  The kernel walks an 8 × 8 grid: 8 tiles of 2048 rows, and for each of them 8 tiles of 512 centres, keeping the
  running sum over the centre tiles in a scratch column that it resets at the first centre tile and turns into the
  output block at the last. The reference forms all 16384 × 4096 distances at once and contracts them with `w`.

  Over the extended reals the two are one function of the arguments. The kernel multiplies the distance by −1/2
  where the reference negates it and divides by 2 — the same on every extended real; the kernel's sum over the
  centres is the reference's, regrouped into eight consecutive tiles — addition on the extended reals is commutative
  and associative; the kernel's single logistic is, by its meaning, the reference's `1 / (1 + exp (−z))`; the changes
  of float format around the kernel's two matrix products are the identity. Nothing here needs the inputs to be
  finite: the precondition is never opened.

  The modules: `Spec` states the function and proves the two laws; `RefIsSpec` reads the reference as it; `Pieces`,
  `Payload`, `Blocks`, `Fold` and `KernelValue` read the kernel as it — what one grid point stores, that arithmetic
  at an index, which part of each argument a point sees, the scratch column over a row tile as a sum, and the blocks
  written back assembled into the result array; `LibColumn` reads a row sum kept as a column at an index. Below, the
  three frame claims are the generated runs, the idealization rewrote nothing, and the algebraic claim sets the two
  runs side by side at arguments that agree.
-/
import proofs.«133548_j17892833755792_1_alg».proof.Defs
import proofs.«133548_j17892833755792_1_alg».proof.Proof.Gen.Kernel
import proofs.«133548_j17892833755792_1_alg».proof.Proof.Gen.Kernel.Skeleton
import proofs.«133548_j17892833755792_1_alg».proof.Proof.Gen.Kernel.Launch
import proofs.«133548_j17892833755792_1_alg».proof.Proof.Gen.Kernel.Points
import proofs.«133548_j17892833755792_1_alg».proof.Proof.Gen.Kernel.Frame
import proofs.«133548_j17892833755792_1_alg».proof.Proof.Gen.KernelIdeal
import proofs.«133548_j17892833755792_1_alg».proof.Proof.Gen.KernelIdeal.Skeleton
import proofs.«133548_j17892833755792_1_alg».proof.Proof.Gen.KernelIdeal.Launch
import proofs.«133548_j17892833755792_1_alg».proof.Proof.Gen.KernelIdeal.Points
import proofs.«133548_j17892833755792_1_alg».proof.Proof.Gen.KernelIdeal.Frame
import proofs.«133548_j17892833755792_1_alg».proof.Proof.Gen.ReferenceIdeal
import proofs.«133548_j17892833755792_1_alg».proof.Proof.Gen.KernelIdeal.Value
import proofs.«133548_j17892833755792_1_alg».proof.Proof.Gen.ReferenceIdeal.Run
import proofs.«133548_j17892833755792_1_alg».proof.Proof.Gen.ReferenceIdeal.Read
import proofs.«133548_j17892833755792_1_alg».proof.Proof.Gen.Pre_finite_inputs
import proofs.«133548_j17892833755792_1_alg».proof.Proof.KernelValue
import proofs.«133548_j17892833755792_1_alg».proof.Proof.RefIsSpec
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization is the kernel's own text read over the extended reals: no operation was rewritten. -/
theorem preserves : Cert.preserves_Kernel_KernelIdeal := trivial

/-- From arguments that agree, the kernel's result array and the reference's are the same function of them. -/
theorem algebraic : Cert.algebraic_KernelIdeal_ReferenceIdeal := by
  intro m ρ m' ρ' _ hagree
  refine ⟨fun c => Cert.KernelIdeal.RbfValue.result m c, Cert.KernelIdeal.RbfValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RbfRef.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
